-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S1 : Shape := ⟨1, ![1]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg1 : IVec S2x640000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x640000 32 := (extractStridedSlice S1x640000 ![1, 0] · slices_S2x640000_S1x640000_1_0) main_arg1
  let main_v30 : IVec S640000 32 := shapeCast S640000 main_v29 shapeCasts_S1x640000_S640000
  let main_c_10 : IVec S_ 32 := constantI S_ 32 0#32
  let main_v31 : IVec S640000 32 := broadcastInDim S640000 ![] bcast_S_S640000 main_c_10
  let main_v32 : IVec S640000 1 := cmpi .sge main_v30 main_v31
  let main_c_11 : IVec S_ 1 := constantI S_ 1 1#1
  let main_v33 : IVec S_ 1 := (fun x v => Host.reduce IntOp.andi x v reducesTo_S640000_S_d0 h_S_) main_v32 main_c_11
  fn_part2 (F := F) main_v28 main_v33

def fn {F : FTy → Type} [FloatOps F] (main_arg0 : FVec F S100000x128 .f32) (main_arg1 : IVec S2x640000 32) (main_arg2 : FVec F S1 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x640000 : Shape := ⟨2, ![2, 640000]⟩
abbrev S1 : Shape := ⟨1, ![1]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S1x1 : Shape := ⟨2, ![1, 1]⟩
abbrev S640000x1 : Shape := ⟨2, ![640000, 1]⟩
abbrev S640000x128 : Shape := ⟨2, ![640000, 128]⟩
abbrev S5000x128 : Shape := ⟨2, ![5000, 128]⟩
abbrev S1x128 : Shape := ⟨2, ![1, 128]⟩

abbrev nBuf : Space → Nat
  | .hbm => 36
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S100000x128, .f32⟩
  | .hbm, ⟨35, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S1 : Shape := ⟨1, ![1]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x1 : Shape := ⟨2, ![1, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S100000x128, .f32⟩
  | .hbm, ⟨22, _⟩ => ⟨S640000x1, .i32⟩
  | .hbm, ⟨23, _⟩ => ⟨S100000x128, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1x1, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MlpSpec.lean ====
/-
  The two-layer perceptron both programs apply to the aggregated node features, as ONE function of its arguments.

  For a row `row : Fin 128 → EReal` of the aggregated array, weights `W1, W2` (128 × 128) and biases `b1, b2` (128),
  the output row has, in column `c`,

      (∑ k, max ((∑ l, row l · W1[l,k]) + b1[k]) 0 · W2[k,c]) + b2[c].

  An output row depends on the same row of the input only, so a block of rows of the output is this function of the
  same block of rows of the input: that is why the kernel may compute it block by block.
-/
import Idealize.ShloMosaic.PureOps.Ideal
import Idealize.ShloMosaic.Lib.ValueIdx

noncomputable section

open scoped BigOperators

namespace Cert.Mlp

open Idealize.ShloMosaic Idealize.ShloMosaic.ValueIdx

/-- One entry of the hidden layer: the row against column `k` of `W1`, plus the bias, clipped below at zero. -/
def hidden (row : Fin 128 → EReal) (W1 : (⟨2, ![128, 128]⟩ : Shape).Idx → EReal) (b1 : (⟨1, ![128]⟩ : Shape).Idx → EReal)
    (k : Fin 128) : EReal :=
  max ((∑ l : Fin 128, row l * W1 (ix2 l k)) + b1 (ix1 k)) 0

/-- One entry of the output row: the hidden layer against column `c` of `W2`, plus the bias. -/
def outRow (row : Fin 128 → EReal) (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (c : Fin 128) : EReal :=
  (∑ k : Fin 128, hidden row W1 b1 k * W2 (ix2 k c)) + b2 (ix1 c)

/-- The whole output array: entry `(r, c)` is `outRow` of row `r` of the aggregated array, at column `c`. -/
def out (agg : (⟨2, ![100000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![100000, 128]⟩ : Shape).Idx → EReal :=
  fun i => outRow (fun l => agg (ix2 (i 0) l)) W1 b1 W2 b2 (i 1)

/-- The output row is determined by the values of its arguments: two families of arguments that agree entry by entry
    give the same output row. -/
theorem outRow_congr {row row' : Fin 128 → EReal} {W1 W1' W2 W2' : (⟨2, ![128, 128]⟩ : Shape).Idx → EReal}
    {b1 b1' b2 b2' : (⟨1, ![128]⟩ : Shape).Idx → EReal} (hrow : ∀ l, row l = row' l) (hW1 : ∀ y, W1 y = W1' y)
    (hb1 : ∀ y, b1 y = b1' y) (hW2 : ∀ y, W2 y = W2' y) (hb2 : ∀ y, b2 y = b2' y) (c : Fin 128) :
    outRow row W1 b1 W2 b2 c = outRow row' W1' b1' W2' b2' c := by
  obtain rfl : row = row' := funext hrow
  obtain rfl : W1 = W1' := funext hW1
  obtain rfl : b1 = b1' := funext hb1
  obtain rfl : W2 = W2' := funext hW2
  obtain rfl : b2 = b2' := funext hb2
  rfl

end Cert.Mlp

end
-- ==== Proof.KernelRow.lean ====
/-
  The kernel body's stored value, read at one entry `(r, c)` of its 5000 × 128 block: the perceptron's output row
  (`Cert.Mlp.outRow`) of row `r` of the loaded block of aggregated features, at column `c`.

  At the ideal instance the two roundings to bf16 are the identity, each matrix-unit product into the zero accumulator
  is the plain sum over the contracted axis, a bias `[128]` cast to `[1, 128]` and broadcast down the rows is read at
  the column, and the clip is the maximum with the zero splat.
-/
import proofs.«156343_j57672820851271_2_alg».proof.Proof.Gen.KernelIdeal.Skeleton
import proofs.«156343_j57672820851271_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- The matrix unit's dimension record for a 5000 × 128 block against a 128 × 128 matrix. -/
abbrev dotD := dot_S5000x128_S128x128_S5000x128_1_0_0_1_n_n

theorem lhs_0 (j : S5000x128.Idx) (q : dotD.contr.Idx) : (dotD.lhsIdx j q 0).val = (j 0).val := by
  unfold DotDims.lhsIdx
  rw [dif_neg (show ¬(0 : Fin S5000x128.rank) ∈ dotD.lhsBatch by decide), dif_pos (show (0 : Fin S5000x128.rank) ∈ dotD.lhsNonContracting by decide)]
  rfl
theorem lhs_1 (j : S5000x128.Idx) (q : dotD.contr.Idx) : (dotD.lhsIdx j q 1).val = (q ⟨0, by decide⟩).val :=
  dotD.lhsIdx_val_of_single rfl j q
theorem rhs_0 (j : S5000x128.Idx) (q : dotD.contr.Idx) : (dotD.rhsIdx j q 0).val = (q ⟨0, by decide⟩).val :=
  dotD.rhsIdx_val_of_single rfl j q
theorem rhs_1 (j : S5000x128.Idx) (q : dotD.contr.Idx) : (dotD.rhsIdx j q 1).val = (j 1).val := by
  unfold DotDims.rhsIdx
  rw [dif_neg (show ¬(1 : Fin S128x128.rank) ∈ dotD.rhsBatch by decide), dif_pos (show (1 : Fin S128x128.rank) ∈ dotD.rhsNonContracting by decide)]
  rfl

/-- A product into the zero accumulator, at entry `(r, k)`: row `r` of the left operand against column `k` of the right. -/
theorem matmul_zero_apply {φ₁ φ₂ : FTy} (a : FVec Ideal S5000x128 φ₁) (w : FVec Ideal S128x128 φ₂) (r : Fin 5000) (k : Fin 128) :
    matmul dotD none a w (constant S5000x128 .f32 0x00000000#32) (ix2 r k) = ∑ l : Fin 128, a (ix2 r l) * w (ix2 l k) := by
  refine (Ideal.matmul_constant_zero_apply dotD none a w (ix2 r k)).trans ?_
  rw [← Equiv.sum_comp (ValueIdx.contrEquiv1 dotD 128 rfl rfl).symm]
  refine Finset.sum_congr rfl fun l _ => ?_
  have hl := ValueIdx.contrEquiv1_symm_val dotD 128 rfl rfl l
  have el : dotD.lhsIdx (ix2 r k) ((ValueIdx.contrEquiv1 dotD 128 rfl rfl).symm l) = ix2 r l := funext fun a => Fin.ext (by
    match a with
    | ⟨0, _⟩ => exact lhs_0 _ _
    | ⟨1, _⟩ => exact (lhs_1 _ _).trans hl)
  have er : dotD.rhsIdx (ix2 r k) ((ValueIdx.contrEquiv1 dotD 128 rfl rfl).symm l) = ix2 l k := funext fun a => Fin.ext (by
    match a with
    | ⟨0, _⟩ => exact (rhs_0 _ _).trans hl
    | ⟨1, _⟩ => exact rhs_1 _ _)
  rw [el, er]

/-- A bias vector laid out as one row and broadcast down the block's rows, at entry `(r, k)`: the bias at `k`. -/
theorem bias_apply (b : Vec Ideal S128 .f32) (r : Fin 5000) (k : Fin 128) :
    broadcastTo S5000x128 (shapeCast S1x128 b shapeCasts_S128_S1x128) broadcasts_S1x128_S5000x128 (ix2 r k) = b (ix1 k) :=
  (broadcastTo_1b_ab_apply _ broadcasts_S1x128_S5000x128 r k).trans (shapeCast_a_1a_apply b shapeCasts_S128_S1x128 0 k)

/-- The hidden layer the body computes, at entry `(r, k)`. -/
theorem hidden_apply (v0 : Vec Ideal S5000x128 .f32) (v3 : Vec Ideal S128x128 .f32) (v6 : Vec Ideal S128 .f32) (r : Fin 5000) (k : Fin 128) :
    maximumf (addf (matmul dotD none (truncf .bf16 (shapeCast S5000x128 v0 shapeCasts_S5000x128_S5000x128) bitsLt_bf16_f32)
        (truncf .bf16 v3 bitsLt_bf16_f32) (constant S5000x128 .f32 0x00000000#32))
      (broadcastTo S5000x128 (shapeCast S1x128 v6 shapeCasts_S128_S1x128) broadcasts_S1x128_S5000x128))
      (broadcast S5000x128 (Scalar.ofBits (F := Ideal) .f32 0x00000000#32)) (ix2 r k)
    = Cert.Mlp.hidden (fun l => v0 (ix2 r l)) v3 v6 k := by
  rw [maximumf_apply, addf_apply, matmul_zero_apply, bias_apply, broadcast_apply, shapeCast_self]
  show max ((∑ l : Fin 128, v0 (ix2 r l) * v3 (ix2 l k)) + v6 (ix1 k)) (Ideal.ofBits .f32 0x00000000#32) = _
  rw [Ideal.ofBits_zero_f32]
  rfl

/-- THE BODY'S STORED VALUE at entry `(r, c)` of the block: the perceptron's output row of row `r` of the loaded
    features, at column `c`. -/
theorem payload_apply (v0 : Vec Ideal S5000x128 .f32) (v3 : Vec Ideal S128x128 .f32) (v6 : Vec Ideal S128 .f32)
    (v13 : Vec Ideal S128x128 .f32) (v16 : Vec Ideal S128 .f32) (r : Fin 5000) (c : Fin 128) :
    k0_pay1 v0 v3 v6 v13 v16 (ix2 r c) = Cert.Mlp.outRow (fun l => v0 (ix2 r l)) v3 v6 v13 v16 c := by
  unfold k0_pay1
  rw [addf_apply, matmul_zero_apply, bias_apply]
  unfold Cert.Mlp.outRow
  refine congrArg (· + v16 (ix1 c)) (Finset.sum_congr rfl fun k _ => ?_)
  rw [truncf_apply, truncf_apply]
  exact congrArg (· * v13 (ix2 k c)) (hidden_apply v0 v3 v6 r k)

end Cert.KernelIdeal.Row

end
-- ==== Proof.KernelArray.lean ====
/-
  The kernel's result array, whole: the perceptron `Cert.Mlp.out` of the aggregated array the region finds in its
  first operand and of the four parameter arrays.

  The grid has 20 points; point `t` stages rows `5000·t … 5000·t + 4999` of the aggregated array and of the result, and
  the four parameter arrays whole. An output row depends on the same input row only, so what point `t` writes back is
  block `t` of the whole-array function; the 20 blocks tile the result's 100000 rows.
-/
import proofs.«156343_j57672820851271_2_alg».proof.Proof.Gen.KernelIdeal.Value
import proofs.«156343_j57672820851271_2_alg».proof.Proof.KernelRow

noncomputable section

open scoped BigOperators

namespace Cert.KernelIdeal.Arr

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 points: the aggregated array's block and the result's block are both
    block `t` along the rows and the only block along the columns; every parameter array has one block. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

theorem point_lt (t : Fin cfg0.N) : t.val < 20 := lt_of_lt_of_eq t.isLt N_0

/-- Row `p` of block `t` is row `5000·t + p` of the array. -/
def rowOf (t : Fin cfg0.N) (p : Fin 5000) : Fin 100000 :=
  ⟨t.val * 5000 + p.val, by have := point_lt t; have := p.isLt; omega⟩

/-! ## The blocks the body is given, read off the arrays -/

/-- The aggregated array's block at point `t`, at `(p, l)`: the array at row `5000·t + p`. -/
theorem read_agg (c : Dev nD) (t : Fin cfg0.N) (p : Fin 5000) (l : Fin 128) :
    iblk m c 0 t (ix2 p l) = V m c main_v22 (ix2 (rowOf t p) l) := by
  obtain ⟨e0, e1, -⟩ := idx_facts t
  show V m c main_v22 (((cfg0.win 0).blk t).view.emb (ix2 p l)) = V m c main_v22 (ix2 (rowOf t p) l)
  refine congrArg (V m c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * l.val = l.val; omega

/-- The first weight matrix is staged whole. -/
theorem read_W1 (c : Dev nD) (t : Fin cfg0.N) (y : S128x128.Idx) : iblk m c 1 t y = V m c main_arg3 y := by
  obtain ⟨-, -, -, -, e0, e1, -⟩ := idx_facts t
  show V m c main_arg3 (((cfg0.win 1).blk t).view.emb y) = V m c main_arg3 y
  refine congrArg (V m c main_arg3) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias is staged whole. -/
theorem read_b1 (c : Dev nD) (t : Fin cfg0.N) (y : S128.Idx) : iblk m c 2 t y = V m c main_arg4 y := by
  obtain ⟨-, -, -, -, -, -, e0, -⟩ := idx_facts t
  show V m c main_arg4 (((cfg0.win 2).blk t).view.emb y) = V m c main_arg4 y
  refine congrArg (V m c main_arg4) (funext fun a => Fin.ext ?_)
  match a with
  | ⟨0, _⟩ => show win0_2.index t (0 : Fin 1) * 128 + 1 * (y 0).val = (y 0).val; omega

/-- The second weight matrix is staged whole. -/
theorem read_W2 (c : Dev nD) (t : Fin cfg0.N) (y : S128x128.Idx) : iblk m c 3 t y = V m c main_arg5 y := by
  obtain ⟨-, -, -, -, -, -, -, e0, e1, -⟩ := idx_facts t
  show V m c main_arg5 (((cfg0.win 3).blk t).view.emb y) = V m c main_arg5 y
  refine congrArg (V m c main_arg5) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias is staged whole. -/
theorem read_b2 (c : Dev nD) (t : Fin cfg0.N) (y : S128.Idx) : iblk m c 4 t y = V m c main_arg6 y := by
  obtain ⟨-, -, -, -, -, -, -, -, -, e0⟩ := idx_facts t
  show V m c main_arg6 (((cfg0.win 4).blk t).view.emb y) = V m c main_arg6 y
  refine congrArg (V m c main_arg6) (funext fun a => Fin.ext ?_)
  match a with
  | ⟨0, _⟩ => show win0_4.index t (0 : Fin 1) * 128 + 1 * (y 0).val = (y 0).val; omega

/-- Entry `(p, q)` of the result's block `t` is entry `(5000·t + p, q)` of the result. -/
theorem emb_out (t : Fin cfg0.N) (p : Fin 5000) (q : Fin 128) :
    ((cfg0.win 5).blk t).view.emb (ix2 p q) = ix2 (rowOf t p) q := by
  obtain ⟨-, -, e0, e1, -⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## What a point writes back, and the whole array -/

/-- The whole-array function the result ends holding, over the arrays as the region finds them. -/
abbrev whole (c : Dev nD) : S100000x128.Idx → EReal :=
  Cert.Mlp.out (V m c main_v22) (V m c main_arg3) (V m c main_arg4) (V m c main_arg5) (V m c main_arg6)

/-- WHAT POINT `t` WRITES BACK is block `t` of the whole-array function. -/
theorem flushed_eq (c : Dev nD) (t : Fin cfg0.N) :
    (dats m 0 c).flushed 5 t = ((cfg0.win 5).blk t).view.read (Elt Ideal) (whole m c) := by
  rw [Cert.KernelIdeal.Value.flushed5]
  unfold out0_5
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  show k0_pay1 (iblk m c 0 t) (iblk m c 1 t) (iblk m c 2 t) (iblk m c 3 t) (iblk m c 4 t) (ix2 p q)
    = whole m c (((cfg0.win 5).blk t).view.emb (ix2 p q))
  rw [emb_out t p q]
  refine (Cert.KernelIdeal.Row.payload_apply (iblk m c 0 t) (iblk m c 1 t) (iblk m c 2 t) (iblk m c 3 t) (iblk m c 4 t) p q).trans ?_
  exact Cert.Mlp.outRow_congr (fun l => read_agg m c t p l) (read_W1 m c t) (read_b1 m c t) (read_W2 m c t) (read_b2 m c t) q

/-- An index of the result is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row of the result lies in the block of the point `row / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, e0, e1, -⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the run is the whole-array function. -/
theorem final (c : Dev nD) : (dats m 0 c).arrAt 5 cfg0.N = whole m c :=
  (dats m 0 c).arrAt_eq_of_cover 5 (whole m c) (fun t _ => flushed_eq m c t) cover

end Cert.KernelIdeal.Arr

end
-- ==== Proof.LibScatterAddInit.lean ====
/-
  Two general facts about a host scatter-add, at the ideal instance.

  `scatterAdd_eq_add_scatterAdd_zero`: accumulating updates into an array `x` gives, entry by entry, `x` plus what the
  same updates accumulate into an all-zero array — the sum of the updates that land on an entry does not depend on
  what the entry held (addition of extended reals is associative, and zero is neutral; no finiteness is needed).

  `select_wrap_of_nonneg`: the index normalisation `i < 0 ? i + n : i` is the identity on non-negative indices.
-/
import Idealize.ShloMosaic.PureOps.Ideal
import Idealize.ShloMosaic.Lib.Affine
import Idealize.ShloMosaic.Lib.ValueIdx

noncomputable section

open scoped BigOperators

namespace Cert.Lib.ScatterAdd

open Idealize.ShloMosaic Idealize.ShloMosaic.ValueIdx

/-- A scatter-add into `x` is `x` plus the scatter-add of the same updates, at the same indices, into an array `z`
    of zeros. -/
theorem scatterAdd_eq_add_scatterAdd_zero {s si u : Shape} {w : Nat} {φ : FTy} (d : ScatterDims s si u)
    (x z : FVec Ideal s φ) (idx : IVec si w) (upd : FVec Ideal u φ) (hz : ∀ i, z i = 0) :
    Host.scatterAdd d x idx upd = addf x (Host.scatterAdd d z idx upd) := by
  funext i
  unfold Host.scatterAdd
  rw [addf_apply, Ideal.hostScatterAdd_def, Ideal.hostScatterAdd_def]
  unfold Ideal.hostScatterAdd
  rw [hz i, zero_add]

/-- Wrapping negative indices around (`select (v < 0) (v + n) v`) leaves an array of non-negative indices as it is. -/
theorem select_wrap_of_nonneg {s : Shape} (v zeros n : IVec s 32) (hzeros : ∀ e, zeros e = 0#32)
    (hv : ∀ e, (0#32 : BitVec 32).toInt ≤ (v e).toInt) : select (cmpi .slt v zeros) (addi v n) v = v := by
  funext e
  rw [select_apply]
  unfold Scalar.select
  refine if_neg fun h => ?_
  have hlt : (v e).toInt < (zeros e).toInt := IntOp.cmpi_slt.1 h
  rw [hzeros e] at hlt
  exact absurd hlt (not_lt.2 (hv e))

end Cert.Lib.ScatterAdd

end
-- ==== Proof.Aggregate.lean ====
/-
  The aggregated node features, two ways.

  The reference takes `agg = (1 + eps) · x + S`, where `S` accumulates, into an all-zero array, row `src e` of `x`
  at row `dst e` for every edge `e` (an edge whose `dst e` is outside the array contributes nothing). The kernel's
  program accumulates the same rows directly into `(1 + eps) · x`, after wrapping a negative `dst e` around
  (`dst e + 100000`). When no `dst e` is negative the wrap does nothing, and accumulating into an array is adding
  the accumulation into zeros: the two aggregated arrays are equal.
-/
import proofs.«156343_j57672820851271_2_alg».proof.Proof.Gen.ReferenceIdeal.Read
import proofs.«156343_j57672820851271_2_alg».proof.Proof.LibScatterAddInit

noncomputable section

open scoped BigOperators

namespace Cert.ReferenceIdeal.Agg

open Cert.ReferenceIdeal Cert.ReferenceIdeal.Gen Cert.ReferenceIdeal.Read Idealize.ShloMosaic Idealize.ShloMosaic.ValueIdx

/-- The aggregated array as the kernel's program forms it, written over the reference's stages: the scaled features
    `%18`, the gathered source rows `%10`, and the destination rows `%3` wrapped around where negative. -/
def wrapped (x0 : (⟨S100000x128, .f32⟩ : BufTy).Contents (Elt Ideal)) (x1 : (⟨S2x640000, .i32⟩ : BufTy).Contents (Elt Ideal))
    (x2 : (⟨S1, .f32⟩ : BufTy).Contents (Elt Ideal)) : FVec Ideal S100000x128 .f32 :=
  Host.scatterAdd (F := Ideal) (φ := .f32) scatter_S100000x128_S640000x1_S640000x128_1_0_0_1 (val_main_v18 (F := Ideal) x0 x2)
    (broadcastInDim S640000x1 ![0] bcast_S640000_S640000x1_0
      (select (cmpi .slt (val_main_v3 (F := Ideal) x1) (val_main_v4 (F := Ideal)))
        (addi (val_main_v3 (F := Ideal) x1) (val_main_v6 (F := Ideal))) (val_main_v3 (F := Ideal) x1)))
    (val_main_v10 (F := Ideal) x0 x1)

/-- The reference's zero splat of indices is zero everywhere. -/
theorem izeros_apply (e : S640000.Idx) : val_main_v4 (F := Ideal) e = 0#32 := by
  rw [val_main_v4_apply, val_main_c_apply]

/-- The reference's zero splat of features is zero everywhere. -/
theorem fzeros_apply (i : S100000x128.Idx) : val_main_v11 (F := Ideal) i = 0 := by
  rw [val_main_v11_apply, val_main_cst_apply, Ideal.ofBits_def, Ideal.ofBits_zero_f32]

/-- With no negative destination row, the kernel's aggregated array is the reference's. -/
theorem wrapped_eq (x0 : (⟨S100000x128, .f32⟩ : BufTy).Contents (Elt Ideal)) (x1 : (⟨S2x640000, .i32⟩ : BufTy).Contents (Elt Ideal))
    (x2 : (⟨S1, .f32⟩ : BufTy).Contents (Elt Ideal))
    (hdst : ∀ e, (0#32 : BitVec 32).toInt ≤ (val_main_v3 (F := Ideal) x1 e).toInt) :
    wrapped x0 x1 x2 = val_main_v19 (F := Ideal) x0 x1 x2 := by
  unfold wrapped
  rw [Cert.Lib.ScatterAdd.select_wrap_of_nonneg _ _ _ izeros_apply hdst]
  exact Cert.Lib.ScatterAdd.scatterAdd_eq_add_scatterAdd_zero _ _ (val_main_v11 (F := Ideal)) _ _ fzeros_apply

end Cert.ReferenceIdeal.Agg

end
-- ==== Proof.KernelAggregate.lean ====
/-
  What the kernel's region finds in its first operand: the host operations before the region scale the features by
  `1 + eps` and accumulate into them, for every edge, the source row at the (wrapped) destination row. Read off the
  program's operation list, that array is `Cert.ReferenceIdeal.Agg.wrapped` of the three arguments it depends on.
-/
import proofs.«156343_j57672820851271_2_alg».proof.Proof.Gen.KernelIdeal.Frame
import proofs.«156343_j57672820851271_2_alg».proof.Proof.Aggregate
import Idealize.ShloMosaic.Lib.StableHlo.Run

noncomputable section

namespace Cert.KernelIdeal.AggValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 2000000 in
/-- The aggregated array at region entry, as a function of the features, the edge list and `eps`. -/
theorem V_agg (c : Dev nD) :
    (V m c main_v22 : S100000x128.Idx → EReal)
      = Cert.ReferenceIdeal.Agg.wrapped (m ((c : Thread nD τ).loc main_arg0)) (m ((c : Thread nD τ).loc main_arg1))
          (m ((c : Thread nD τ).loc main_arg2)) := by
  show StableHlo.after hostOps0 (fun b => m (c, b)) (Proc.devRef .tc main_v22) = _
  after_results_simp
  rfl

end Cert.KernelIdeal.AggValue

end
-- ==== Proof.KernelRun.lean ====
/-
  The kernel's run, with its result named: every execution ends with the result array at the perceptron
  `Cert.Mlp.out` of the aggregated array its host operations formed (`Cert.ReferenceIdeal.Agg.wrapped` of the
  features, the edge list and `eps`) and of the four parameter arrays as launched; the arguments are unchanged.
-/
import proofs.«156343_j57672820851271_2_alg».proof.Proof.KernelArray
import proofs.«156343_j57672820851271_2_alg».proof.Proof.KernelAggregate

noncomputable section

namespace Cert.KernelIdeal.KRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array after the run, over the launch contents of the arguments. -/
theorem result_eq (c : Dev nD) :
    (dats m 0 c).arrAt 5 cfg0.N
      = Cert.Mlp.out
          (Cert.ReferenceIdeal.Agg.wrapped (m ((c : Thread nD τ).loc main_arg0)) (m ((c : Thread nD τ).loc main_arg1))
            (m ((c : Thread nD τ).loc main_arg2)))
          (m ((c : Thread nD τ).loc main_arg3)) (m ((c : Thread nD τ).loc main_arg4))
          (m ((c : Thread nD τ).loc main_arg5)) (m ((c : Thread nD τ).loc main_arg6)) := by
  rw [Cert.KernelIdeal.Arr.final m c]
  show Cert.Mlp.out (V m c main_v22) (V m c main_arg3) (V m c main_arg4) (V m c main_arg5) (V m c main_arg6) = _
  rw [Cert.KernelIdeal.AggValue.V_agg m c, V_main_arg3 m c, V_main_arg4 m c, V_main_arg5 m c, V_main_arg6 m c]

/-- The run, re-posted with the result array as that function of the arguments. -/
theorem run : θ_run defs (onTc (τ := τ) (main (F := Ideal))) ⟨m, fun _ => 0, ρ⟩ fun r => ∀ c : Dev nD,
      r.2.mem ((c : Thread nD τ).loc main_v23)
        = Cert.Mlp.out
            (Cert.ReferenceIdeal.Agg.wrapped (m ((c : Thread nD τ).loc main_arg0)) (m ((c : Thread nD τ).loc main_arg1))
              (m ((c : Thread nD τ).loc main_arg2)))
            (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result_eq m c), (h c).2⟩)
    (Cert.KernelIdeal.Value.run_blocks m ρ)

end Cert.KernelIdeal.KRun

end
-- ==== Proof.RefMlp.lean ====
/-
  The reference's result is the perceptron `Cert.Mlp.out` of its aggregated array (its stage `%19`, the scaled
  features plus the scattered sum) and the four parameter arrays: the two host matrix products are sums over the
  contracted axis, the biases are broadcast along rows, and the clip is the maximum with the zero splat.
-/
import proofs.«156343_j57672820851271_2_alg».proof.Proof.Gen.ReferenceIdeal.Read
import proofs.«156343_j57672820851271_2_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The index the first product reads its left operand at, from inside the second product: row `i 0`, column `l`. -/
theorem lidx_lidx (i : S100000x128.Idx) (k l : Fin 128) : lidx_main_v20 (lidx_main_v25 i k) l = ix2 (i 0) l :=
  funext fun a => Fin.ext (by match a with | ⟨0, _⟩ => rfl | ⟨1, _⟩ => rfl)
/-- … and its right operand: row `l`, column `k`. -/
theorem ridx_lidx (i : S100000x128.Idx) (k l : Fin 128) : ridx_main_v20 (lidx_main_v25 i k) l = ix2 l k :=
  funext fun a => Fin.ext (by match a with | ⟨0, _⟩ => rfl | ⟨1, _⟩ => rfl)
/-- The first bias is read at the hidden column `k`. -/
theorem bias1_idx (i : S100000x128.Idx) (k : Fin 128) : idx_main_v21 (idx_main_v22 (lidx_main_v25 i k)) = ix1 k :=
  funext fun a => Fin.ext (by match a with | ⟨0, _⟩ => rfl)
/-- The second product reads `W2` at row `k`, column `i 1`. -/
theorem ridx2 (i : S100000x128.Idx) (k : Fin 128) : ridx_main_v25 i k = ix2 k (i 1) :=
  funext fun a => Fin.ext (by match a with | ⟨0, _⟩ => rfl | ⟨1, _⟩ => rfl)
/-- The second bias is read at the output column `i 1`. -/
theorem bias2_idx (i : S100000x128.Idx) : idx_main_v26 (idx_main_v27 i) = ix1 (i 1) :=
  funext fun a => Fin.ext (by match a with | ⟨0, _⟩ => rfl)

/-- The reference's result, index by index, is the perceptron of its aggregated array. -/
theorem result_eq_mlp (x0 : (⟨S100000x128, .f32⟩ : BufTy).Contents (Elt Ideal)) (x1 : (⟨S2x640000, .i32⟩ : BufTy).Contents (Elt Ideal))
    (x2 : (⟨S1, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v28 (F := Ideal) x0 x1 x2 x3 x4 x5 x6 = Cert.Mlp.out (val_main_v19 (F := Ideal) x0 x1 x2) x3 x4 x5 x6 := by
  funext i
  rw [val_main_v28_apply, val_main_v25_apply, val_main_v27_apply, val_main_v26_apply, bias2_idx]
  simp only [val_main_v24_apply, val_main_v23_apply, val_main_v20_apply, val_main_v22_apply, val_main_v21_apply,
    val_main_call0_v0_apply, val_main_call0_cst_apply, lidx_lidx, ridx_lidx, bias1_idx, ridx2,
    Ideal.addf_def, Ideal.maximumf_def, Ideal.ofBits_def, Ideal.ofBits_zero_f32]
  rfl

end Cert.ReferenceIdeal.RefValue

end
-- ==== Proof.PreDst.lean ====
/-
  What the precondition says of the edge list: its last conjunct is `jnp.all(edge_idx[1] >= 0)`, an `and`-reduction
  of the signed comparisons `dst e ≥ 0` that comes out 1, so every destination row is non-negative.
-/
import proofs.«156343_j57672820851271_2_alg».proof.Defs
import proofs.«156343_j57672820851271_2_alg».proof.Proof.Gen.Pre_finite_inputs
import proofs.«156343_j57672820851271_2_alg».proof.Proof.Gen.ReferenceIdeal.Read
import Idealize.ShloMosaic.Lib.ReduceAll
import Idealize.ShloMosaic.Lib.ValueIdx

noncomputable section

namespace Cert.KernelIdeal.PreDst

open Idealize.ShloMosaic Idealize.ShloMosaic.TcCoe Idealize.SL.Sem Idealize.ShloMosaic.ValueIdx

/-- A rank-0 array has one index. -/
instance : Subsingleton Cert.Pre_finite_inputs.S_.Idx := ⟨fun _ _ => funext fun d => d.elim0⟩

/-- Under the precondition every destination row of the edge list (the reference's stage `%3`) is non-negative. -/
theorem dst_nonneg (m : (ℓ : Loc Cert.KernelIdeal.nD Cert.KernelIdeal.τ Cert.KernelIdeal.sig) → Buf (Elt Ideal) ℓ)
    (h : Cert.Pre_KernelIdeal m) (c : Dev Cert.KernelIdeal.nD) (e : Cert.ReferenceIdeal.S640000.Idx) :
    (0#32 : BitVec 32).toInt
      ≤ (Cert.ReferenceIdeal.Read.val_main_v3 (F := Ideal)
          (m ((c.tc : Thread Cert.KernelIdeal.nD Cert.KernelIdeal.τ).loc Cert.KernelIdeal.main_arg1)) e).toInt := by
  have e0 := congrFun (h c) ix0
  dsimp only [Cert.Pre_finite_inputs.fn, Cert.Pre_finite_inputs.fn_part1, Cert.Pre_finite_inputs.fn_part2] at e0
  have e1 := (IntOp.andi_eq_one.1 e0).2
  have e2 := Host.reduce_andi_all _ _ _ _ ix0 e1 e
  exact IntOp.cmpi_sge.1 e2

end Cert.KernelIdeal.PreDst

end
-- ==== Proof.lean ====
/-
  Both programs compute one graph-isomorphism layer on 100000 nodes with 128 features and 640000 edges
  `(src e, dst e)`:

      agg = (1 + eps) · x + Σ_{e : dst e = r} x[src e]        (row by row `r`),
      out = max(agg · W1 + b1, 0) · W2 + b2.

  The reference forms the neighbour sum by a scatter-add into zeros and adds it to the scaled features; the kernel's
  program scatter-adds straight into the scaled features, after wrapping negative destination rows around, and then
  applies the two-layer perceptron on the matrix unit, 5000 rows at a time. Over the extended reals the two
  aggregated arrays agree as soon as no destination row is negative (`Proof/Aggregate.lean`; the precondition says so,
  `Proof/PreDst.lean`), the roundings to bf16 are the identity, and a product into a zero accumulator is the host's
  product; so both results are `Cert.Mlp.out` (`Proof/MlpSpec.lean`) of the same aggregated array and the same
  parameters: the kernel's by `Proof/KernelRow.lean` (one entry of a block), `Proof/KernelArray.lean` (the 20 blocks
  tile the array) and `Proof/KernelRun.lean`; the reference's by `Proof/RefMlp.lean`. No law used needs finite
  values. The idealization rewrote nothing, so `preserves` is trivial; the kernels' frames are the generated ones and
  the reference's frame is its generated run with the result dropped.
-/
import proofs.«156343_j57672820851271_2_alg».proof.Defs
import proofs.«156343_j57672820851271_2_alg».proof.Proof.Gen.Kernel
import proofs.«156343_j57672820851271_2_alg».proof.Proof.Gen.Kernel.Skeleton
import proofs.«156343_j57672820851271_2_alg».proof.Proof.Gen.Kernel.Launch
import proofs.«156343_j57672820851271_2_alg».proof.Proof.Gen.Kernel.Points
import proofs.«156343_j57672820851271_2_alg».proof.Proof.Gen.Kernel.Frame
import proofs.«156343_j57672820851271_2_alg».proof.Proof.Gen.KernelIdeal
import proofs.«156343_j57672820851271_2_alg».proof.Proof.Gen.KernelIdeal.Skeleton
import proofs.«156343_j57672820851271_2_alg».proof.Proof.Gen.KernelIdeal.Launch
import proofs.«156343_j57672820851271_2_alg».proof.Proof.Gen.KernelIdeal.Points
import proofs.«156343_j57672820851271_2_alg».proof.Proof.Gen.KernelIdeal.Frame
import proofs.«156343_j57672820851271_2_alg».proof.Proof.Gen.ReferenceIdeal
import proofs.«156343_j57672820851271_2_alg».proof.Proof.Gen.Pre_finite_inputs
import proofs.«156343_j57672820851271_2_alg».proof.Proof.Gen.KernelIdeal.Value
import proofs.«156343_j57672820851271_2_alg».proof.Proof.Gen.ReferenceIdeal.Run
import proofs.«156343_j57672820851271_2_alg».proof.Proof.Gen.ReferenceIdeal.Read
import proofs.«156343_j57672820851271_2_alg».proof.Proof.KernelRun
import proofs.«156343_j57672820851271_2_alg».proof.Proof.RefMlp
import proofs.«156343_j57672820851271_2_alg».proof.Proof.PreDst
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both programs end with the perceptron of one
    aggregated array: the kernel's is the reference's because no destination row is negative. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq_mlp,
    (hagree c).1, (hagree c).2.1, (hagree c).2.2.1, (hagree c).2.2.2.1, (hagree c).2.2.2.2.1, (hagree c).2.2.2.2.2.1,
    (hagree c).2.2.2.2.2.2,
    Cert.ReferenceIdeal.Agg.wrapped_eq _ _ _ (Cert.KernelIdeal.PreDst.dst_nonneg m hpre c)]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
